-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_

variable [Facts]

def fn {F : FTy → Type} [FloatOps F] (main_arg0 : FVec F S10000x128 .f32) (main_arg1 : FVec F S10000x10000 .f32) (main_arg2 : FVec F S10000x10000 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S10000x256 : Shape := ⟨2, ![10000, 256]⟩
abbrev S200x10000 : Shape := ⟨2, ![200, 10000]⟩
abbrev S200x256 : Shape := ⟨2, ![200, 256]⟩
abbrev S200x128 : Shape := ⟨2, ![200, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S10000x256, .f32⟩
  | .local _ .vmem, ⟨0, _⟩ => ⟨S10000x128, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x256, .f32⟩
  | .local _ .vmem, ⟨6, _⟩ => ⟨S200x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S200x10000_S200x10000_0_0 : ∀ a, (![0, 0] : Fin 2 → Nat) a + S200x10000.size a ≤ S200x10000.size a
  h_S200x10000 : 0 < S200x10000.numel
  inb_S200x256_S200x128_0_0 : ∀ a, (![0, 0] : Fin 2 → Nat) a + S200x128.size a ≤ S200x256.size a
  h_S200x128 : 0 < S200x128.numel
  inb_S200x256_S200x128_0_128 : ∀ a, (![0, 128] : Fin 2 → Nat) a + S200x128.size a ≤ S200x256.size a
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x256.size a ≤ S10000x256.size a
  hwx0_3 : ∀ i : grid0.Coords, EltTy.bits .f32 = 32 ∨ (Rect.block (s := S10000x256) S200x256.size (cc0_transform_3 i) (hinb0_3 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S200x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S10000x256 : Shape := ⟨2, ![10000, 256]⟩

abbrev nBuf : Space → Nat
  | .hbm => 6
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S10000x128, .f32⟩
  | .hbm, ⟨4, _⟩ => ⟨S10000x128, .f32⟩
  | .hbm, ⟨5, _⟩ => ⟨S10000x256, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  dot_S10000x10000_S10000x128_S10000x128_1_0_0_1_n_n_wf : DotDims.WF S10000x10000 S10000x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.TwoHop.lean ====
/-
  Two matrix products set side by side, entry by entry, over the extended reals.

  For a feature matrix `x` (10000 × 128) and two matrices `a₁`, `a₂` with `R` rows and 10000 columns, the
  `R × 256` matrix `[a₁ · x | a₂ · x]`: its entry at row `r` and column `c` is `∑ k, a₁ (r, k) · x (k, c)` when
  `c < 128` and `∑ k, a₂ (r, k) · x (k, c − 128)` otherwise. The column of `x` that an entry reads is
  `c mod 128` in both halves. The number of rows is a parameter: the same function describes the whole
  10000-row result and one 200-row strip of it.
-/
import Idealize.ShloMosaic.PureOps.Ideal
import Idealize.ShloMosaic.Lib.ValueIdx

noncomputable section

namespace Cert.TwoHop

open Idealize.ShloMosaic Idealize.ShloMosaic.ValueIdx

/-- The column of `x` that column `c` of the joined result reads: `c` in the left half, `c − 128` in the right. -/
abbrev col (c : Fin 256) : Fin 128 := ⟨c.val % 128, Nat.mod_lt _ (by norm_num)⟩

/-- Entry `(r, c)` of `[a₁ · x | a₂ · x]`. -/
def entry {R : Nat} (x : FVec Ideal ⟨2, ![10000, 128]⟩ .f32) (a₁ a₂ : FVec Ideal ⟨2, ![R, 10000]⟩ .f32)
    (r : Fin R) (c : Fin 256) : EReal :=
  if c.val < 128 then ∑ k : Fin 10000, a₁ (ix2 r k) * x (ix2 k (col c))
  else ∑ k : Fin 10000, a₂ (ix2 r k) * x (ix2 k (col c))

/-- The matrix `[a₁ · x | a₂ · x]`. -/
def pair {R : Nat} (x : FVec Ideal ⟨2, ![10000, 128]⟩ .f32) (a₁ a₂ : FVec Ideal ⟨2, ![R, 10000]⟩ .f32) :
    FVec Ideal ⟨2, ![R, 256]⟩ .f32 :=
  fun i => entry x a₁ a₂ (i 0) (i 1)

theorem pair_apply {R : Nat} (x : FVec Ideal ⟨2, ![10000, 128]⟩ .f32) (a₁ a₂ : FVec Ideal ⟨2, ![R, 10000]⟩ .f32)
    (r : Fin R) (c : Fin 256) : pair x a₁ a₂ (ix2 r c) = entry x a₁ a₂ r c := rfl

/-- In the left half the entry is the first product's. -/
theorem entry_left {R : Nat} (x : FVec Ideal ⟨2, ![10000, 128]⟩ .f32) (a₁ a₂ : FVec Ideal ⟨2, ![R, 10000]⟩ .f32)
    (r : Fin R) (c : Fin 256) (q : Fin 128) (h : q.val = c.val) :
    entry x a₁ a₂ r c = ∑ k : Fin 10000, a₁ (ix2 r k) * x (ix2 k q) := by
  have hq : col c = q := Fin.ext (by show c.val % 128 = q.val; have := q.isLt; omega)
  unfold entry
  rw [if_pos (by have := q.isLt; omega), hq]

/-- In the right half the entry is the second product's, 128 columns to the left. -/
theorem entry_right {R : Nat} (x : FVec Ideal ⟨2, ![10000, 128]⟩ .f32) (a₁ a₂ : FVec Ideal ⟨2, ![R, 10000]⟩ .f32)
    (r : Fin R) (c : Fin 256) (q : Fin 128) (h : q.val + 128 = c.val) :
    entry x a₁ a₂ r c = ∑ k : Fin 10000, a₂ (ix2 r k) * x (ix2 k q) := by
  have hq : col c = q := Fin.ext (by show c.val % 128 = q.val; have := q.isLt; omega)
  unfold entry
  rw [if_neg (by omega), hq]

/-- An entry reads only `x` and row `r` of each matrix: two settings that agree there have the same entry. -/
theorem entry_congr {R R' : Nat} (x x' : FVec Ideal ⟨2, ![10000, 128]⟩ .f32)
    (a₁ a₂ : FVec Ideal ⟨2, ![R, 10000]⟩ .f32) (b₁ b₂ : FVec Ideal ⟨2, ![R', 10000]⟩ .f32)
    (r : Fin R) (r' : Fin R') (c : Fin 256)
    (hx : ∀ (k : Fin 10000) (q : Fin 128), x (ix2 k q) = x' (ix2 k q))
    (h₁ : ∀ k : Fin 10000, a₁ (ix2 r k) = b₁ (ix2 r' k)) (h₂ : ∀ k : Fin 10000, a₂ (ix2 r k) = b₂ (ix2 r' k)) :
    entry x a₁ a₂ r c = entry x' b₁ b₂ r' c := by
  unfold entry
  simp only [hx, h₁, h₂]

end Cert.TwoHop

end
-- ==== Proof.RefValue.lean ====
/-
  The reference's result is the joined pair of products, entry by entry.

  The reference multiplies each adjacency matrix by `x` on the host and concatenates the two products along the
  columns. An entry of the concatenation in a column below 128 is the first product's entry in that column; in a
  column from 128 on it is the second product's entry 128 columns to the left. Each product's entry at `(r, q)` is
  `∑ k, a (r, k) · x (k, q)` over the extended reals.
-/
import proofs.«120631_g35588099015572_cont_8to1_b_1945_26_alg».proof.Proof.Gen.ReferenceIdeal.Read
import proofs.«120631_g35588099015572_cont_8to1_b_1945_26_alg».proof.Proof.TwoHop

noncomputable section

namespace Cert.ReferenceIdeal.RefValue

open Cert.ReferenceIdeal Cert.ReferenceIdeal.Gen Idealize.ShloMosaic Idealize.ShloMosaic.ValueIdx

/-- Row `r` of the left operand and the running column `k`: the left index of a product's entry. -/
theorem lidx0_ix2 (r : Fin 10000) (q : Fin 128) (k : Fin 10000) : Read.lidx_main_v0 (ix2 r q) k = ix2 r k :=
  funext fun a => Fin.ext (by match a with | ⟨0, _⟩ => rfl | ⟨1, _⟩ => rfl)

/-- The running row `k` of `x` and the entry's column `q`: the right index of a product's entry. -/
theorem ridx0_ix2 (r : Fin 10000) (q : Fin 128) (k : Fin 10000) : Read.ridx_main_v0 (ix2 r q) k = ix2 k q :=
  funext fun a => Fin.ext (by match a with | ⟨0, _⟩ => rfl | ⟨1, _⟩ => rfl)

theorem lidx1_ix2 (r : Fin 10000) (q : Fin 128) (k : Fin 10000) : Read.lidx_main_v1 (ix2 r q) k = ix2 r k :=
  funext fun a => Fin.ext (by match a with | ⟨0, _⟩ => rfl | ⟨1, _⟩ => rfl)

theorem ridx1_ix2 (r : Fin 10000) (q : Fin 128) (k : Fin 10000) : Read.ridx_main_v1 (ix2 r q) k = ix2 k q :=
  funext fun a => Fin.ext (by match a with | ⟨0, _⟩ => rfl | ⟨1, _⟩ => rfl)

/-- The first product at `(r, q)`. -/
theorem first_apply (x : Vec Ideal S10000x128 .f32) (a₁ : Vec Ideal S10000x10000 .f32) (r : Fin 10000) (q : Fin 128) :
    Read.val_main_v0 (F := Ideal) x a₁ (ix2 r q) = ∑ k : Fin 10000, a₁ (ix2 r k) * x (ix2 k q) := by
  rw [Read.val_main_v0_apply]
  refine Finset.sum_congr rfl fun k _ => ?_
  rw [lidx0_ix2, ridx0_ix2]

/-- The second product at `(r, q)`. -/
theorem second_apply (x : Vec Ideal S10000x128 .f32) (a₂ : Vec Ideal S10000x10000 .f32) (r : Fin 10000) (q : Fin 128) :
    Read.val_main_v1 (F := Ideal) x a₂ (ix2 r q) = ∑ k : Fin 10000, a₂ (ix2 r k) * x (ix2 k q) := by
  rw [Read.val_main_v1_apply]
  refine Finset.sum_congr rfl fun k _ => ?_
  rw [lidx1_ix2, ridx1_ix2]

/-- The reference's result is `[a₁ · x | a₂ · x]`. -/
theorem result_eq (x : Vec Ideal S10000x128 .f32) (a₁ a₂ : Vec Ideal S10000x10000 .f32) :
    Read.val_main_v2 (F := Ideal) x a₁ a₂ = TwoHop.pair x a₁ a₂ := by
  funext j
  obtain ⟨r, c, rfl⟩ : ∃ (r : Fin 10000) (c : Fin 256), j = ix2 r c := ⟨j 0, j 1, eq_ix2 j⟩
  rw [TwoHop.pair_apply]
  unfold Read.val_main_v2
  by_cases h : c.val < 128
  · refine (concatenate_pair_apply_left (t := S10000x256) (s₁ := S10000x128) (s₂ := S10000x128) (1 : Fin 2) _ _ _ (ix2 r c) rfl (ix2 r (⟨c.val, h⟩ : Fin 128)) ?_).trans ?_
    · intro b
      match b with
      | ⟨0, _⟩ => rfl
      | ⟨1, _⟩ => rfl
    · rw [first_apply, TwoHop.entry_left x a₁ a₂ r c ⟨c.val, h⟩ rfl]
  · have hc : c.val - 128 < 128 := by have := c.isLt; omega
    refine (concatenate_pair_apply_right (t := S10000x256) (s₁ := S10000x128) (s₂ := S10000x128) (1 : Fin 2) _ _ _ (ix2 r c) rfl rfl (ix2 r (⟨c.val - 128, hc⟩ : Fin 128)) ?_ ?_).trans ?_
    · intro b hb
      match b, hb with
      | ⟨0, _⟩, _ => rfl
      | ⟨1, _⟩, hb => exact absurd rfl hb
    · show c.val - 128 + 128 = c.val
      omega
    · rw [second_apply, TwoHop.entry_right x a₁ a₂ r c ⟨c.val - 128, hc⟩ (by show c.val - 128 + 128 = c.val; omega)]

end Cert.ReferenceIdeal.RefValue

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.Strip.lean ====
/-
  One grid point's strip of the result is the joined pair of products of the strip's rows.

  At a grid point the body holds all of `x` and a 200-row strip of each adjacency matrix. It multiplies each
  strip by `x` into a zero accumulator and stores the first product in columns 0–127 of the 200 × 256 output
  block and the second in columns 128–255. Over the extended reals a product into the zero accumulator is, at
  `(p, q)`, the sum `∑ k, a (p, k) · x (k, q)`; the two stores tile the block, so the block is
  `[a₁ · x | a₂ · x]` for the two strips.
-/
import proofs.«120631_g35588099015572_cont_8to1_b_1945_26_alg».proof.Proof.Gen.KernelIdeal.Frame
import proofs.«120631_g35588099015572_cont_8to1_b_1945_26_alg».proof.Proof.LibPlainMatmul
import proofs.«120631_g35588099015572_cont_8to1_b_1945_26_alg».proof.Proof.TwoHop
import Idealize.ShloMosaic.Lib.Pipeline.Value

noncomputable section

namespace Cert.KernelIdeal.Strip

open Cert.KernelIdeal Cert.KernelIdeal.Gen Idealize.ShloMosaic Idealize.ShloMosaic.ValueIdx

theorem zero_offsets : (![0, 0] : Fin 2 → Nat) = fun _ => 0 := funext fun a => by fin_cases a <;> rfl

/-- The first product of a strip at `(p, q)`. -/
theorem first_apply (x : Vec Ideal S10000x128 .f32) (a : Vec Ideal S200x10000 .f32) (p : Fin 200) (q : Fin 128) :
    k0_pay1 (F := Ideal) x a (ix2 p q) = ∑ k : Fin 10000, a (ix2 p k) * x (ix2 k q) := by
  unfold k0_pay1
  exact LibPlainMatmul.matmul_zero_apply _ rfl rfl rfl rfl rfl rfl none a x p q

/-- The second product of a strip at `(p, q)`. -/
theorem second_apply (x : Vec Ideal S10000x128 .f32) (a : Vec Ideal S200x10000 .f32) (p : Fin 200) (q : Fin 128) :
    k0_pay2 (F := Ideal) x a (ix2 p q) = ∑ k : Fin 10000, a (ix2 p k) * x (ix2 k q) := by
  unfold k0_pay2
  exact LibPlainMatmul.matmul_zero_apply _ rfl rfl rfl rfl rfl rfl none a x p q

/-- Where the left store's entry `(p, q)` lands in the block: `(p, q)`. -/
theorem left_emb (p : Fin 200) (q : Fin 128) : r0_2.emb (ix2 p q) = ix2 p (⟨q.val, by omega⟩ : Fin 256) :=
  funext fun a => Fin.ext (by
    match a with
    | ⟨0, _⟩ => show 0 + 1 * p.val = p.val; omega
    | ⟨1, _⟩ => show 0 + 1 * q.val = q.val; omega)

/-- Where the right store's entry `(p, q)` lands in the block: `(p, q + 128)`. -/
theorem right_emb (p : Fin 200) (q : Fin 128) : r0_3.emb (ix2 p q) = ix2 p (⟨q.val + 128, by omega⟩ : Fin 256) :=
  funext fun a => Fin.ext (by
    match a with
    | ⟨0, _⟩ => show 0 + 1 * p.val = p.val; omega
    | ⟨1, _⟩ => show 128 + 1 * q.val = q.val + 128; omega)

/-- The left store's payload is the left half of the joined pair. -/
theorem left_piece (x : Vec Ideal S10000x128 .f32) (a₁ a₂ : Vec Ideal S200x10000 .f32) (y : S200x128.Idx) :
    k0_pay1 (F := Ideal) (View.ld x r0_0) (View.ld a₁ r0_1) y = TwoHop.pair x a₁ a₂ (r0_2.emb y) := by
  obtain ⟨p, q, rfl⟩ : ∃ (p : Fin 200) (q : Fin 128), y = ix2 p q := ⟨y 0, y 1, eq_ix2 y⟩
  rw [View.ld_unit_zero (S := S10000x128) zero_offsets, View.ld_unit_zero (S := S200x10000) zero_offsets,
    first_apply, left_emb, TwoHop.pair_apply, TwoHop.entry_left x a₁ a₂ p _ q rfl]

/-- The right store's payload is the right half of the joined pair. -/
theorem right_piece (x : Vec Ideal S10000x128 .f32) (a₁ a₂ : Vec Ideal S200x10000 .f32) (y : S200x128.Idx) :
    k0_pay2 (F := Ideal) (View.ld x r0_0) (View.ld a₂ r0_1) y = TwoHop.pair x a₁ a₂ (r0_3.emb y) := by
  obtain ⟨p, q, rfl⟩ : ∃ (p : Fin 200) (q : Fin 128), y = ix2 p q := ⟨y 0, y 1, eq_ix2 y⟩
  rw [View.ld_unit_zero (S := S10000x128) zero_offsets, View.ld_unit_zero (S := S200x10000) zero_offsets,
    second_apply, right_emb, TwoHop.pair_apply, TwoHop.entry_right x a₁ a₂ p _ q rfl]

/-- What the body leaves in the output block: `[a₁ · x | a₂ · x]` for the point's two strips. -/
theorem block_eq (x : Vec Ideal S10000x128 .f32) (a₁ a₂ : Vec Ideal S200x10000 .f32) :
    out0_3 (F := Ideal) x a₁ a₂ = TwoHop.pair x a₁ a₂ := by
  funext y
  unfold out0_3
  refine View.canon_apply_of_pieces (Val := Elt Ideal) (TwoHop.pair x a₁ a₂) _ ?_ y (cover0_3 _ _ y)
  refine List.forall_mem_cons.mpr ⟨fun z => right_piece x a₁ a₂ z, List.forall_mem_cons.mpr ⟨fun z => left_piece x a₁ a₂ z, ?_⟩⟩
  intro _ h
  exact absurd h List.not_mem_nil

end Cert.KernelIdeal.Strip

end
-- ==== Proof.Whole.lean ====
/-
  From strips to the whole result.

  The grid has 50 points; point `t` holds all of `x`, rows `200·t … 200·t + 199` of each adjacency matrix, and
  writes back rows `200·t … 200·t + 199` of the 10000 × 256 result. What it writes is the joined pair of products
  of its two strips, and an entry of that pair reads only its own row of each matrix, so the strip written at
  point `t` is the strip of `[a₁ · x | a₂ · x]` for the whole matrices. The 50 strips tile the 10000 rows
  (row `r` lies in strip `r / 200`), so after the run the result array is `[a₁ · x | a₂ · x]`.
-/
import proofs.«120631_g35588099015572_cont_8to1_b_1945_26_alg».proof.Proof.Gen.KernelIdeal.Value
import proofs.«120631_g35588099015572_cont_8to1_b_1945_26_alg».proof.Proof.Strip

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The block indices over the grid: `x`'s block never moves, each adjacency strip moves with the output strip
    down the rows, and no block moves along the columns. -/
theorem index_facts : ∀ t : Fin cfg0.N,
    win0_0.index t (0 : Fin 2) = 0 ∧ win0_0.index t (1 : Fin 2) = 0
    ∧ win0_1.index t (0 : Fin 2) = win0_3.index t (0 : Fin 2) ∧ win0_1.index t (1 : Fin 2) = 0
    ∧ win0_2.index t (0 : Fin 2) = win0_3.index t (0 : Fin 2) ∧ win0_2.index t (1 : Fin 2) = 0
    ∧ win0_3.index t (0 : Fin 2) ≤ 49 ∧ win0_3.index t (1 : Fin 2) = 0 :=
  (by decide +kernel : ∀ t : Fin grid0.N, _)

/-- Every one of the 50 row strips is some point's. -/
theorem index_onto : ∀ s : Fin 50, ∃ t : Fin cfg0.N, win0_3.index t = ![s.val, 0] :=
  (by decide +kernel : ∀ s : Fin 50, ∃ t : Fin grid0.N, win0_3.index t = ![s.val, 0])

/-- The block of `x` at any point is `x`. -/
theorem x_block (c : Dev nD) (t : Fin cfg0.N) (k : Fin 10000) (q : Fin 128) :
    iblk m c 0 t (ix2 k q) = V m c main_arg0 (ix2 k q) := by
  obtain ⟨e00, e01, -⟩ := index_facts t
  show V m c main_arg0 (((cfg0.win 0).blk t).view.emb (ix2 k q)) = V m c main_arg0 (ix2 k q)
  refine congrArg (V m c main_arg0) (funext fun a => Fin.ext ?_)
  match a with
  | ⟨0, _⟩ => show win0_0.index t (0 : Fin 2) * 10000 + 1 * k.val = k.val; omega
  | ⟨1, _⟩ => show win0_0.index t (1 : Fin 2) * 128 + 1 * q.val = q.val; omega

/-- Row `p` of the first adjacency strip at point `t` is row `200·(strip index) + p` of the first adjacency matrix. -/
theorem a1_block (c : Dev nD) (t : Fin cfg0.N) (p : Fin 200) (r : Fin 10000)
    (hr : r.val = win0_3.index t (0 : Fin 2) * 200 + p.val) (k : Fin 10000) :
    iblk m c 1 t (ix2 p k) = V m c main_arg1 (ix2 r k) := by
  obtain ⟨-, -, e10, e11, -⟩ := index_facts t
  show V m c main_arg1 (((cfg0.win 1).blk t).view.emb (ix2 p k)) = V m c main_arg1 (ix2 r k)
  refine congrArg (V m c main_arg1) (funext fun a => Fin.ext ?_)
  match a with
  | ⟨0, _⟩ => show win0_1.index t (0 : Fin 2) * 200 + 1 * p.val = r.val; omega
  | ⟨1, _⟩ => show win0_1.index t (1 : Fin 2) * 10000 + 1 * k.val = k.val; omega

/-- The same for the second adjacency matrix. -/
theorem a2_block (c : Dev nD) (t : Fin cfg0.N) (p : Fin 200) (r : Fin 10000)
    (hr : r.val = win0_3.index t (0 : Fin 2) * 200 + p.val) (k : Fin 10000) :
    iblk m c 2 t (ix2 p k) = V m c main_arg2 (ix2 r k) := by
  obtain ⟨-, -, -, -, e20, e21, -⟩ := index_facts t
  show V m c main_arg2 (((cfg0.win 2).blk t).view.emb (ix2 p k)) = V m c main_arg2 (ix2 r k)
  refine congrArg (V m c main_arg2) (funext fun a => Fin.ext ?_)
  match a with
  | ⟨0, _⟩ => show win0_2.index t (0 : Fin 2) * 200 + 1 * p.val = r.val; omega
  | ⟨1, _⟩ => show win0_2.index t (1 : Fin 2) * 10000 + 1 * k.val = k.val; omega

/-- What point `t` writes back is strip `t` of `[a₁ · x | a₂ · x]` for the whole argument arrays. -/
theorem flushed_eq (c : Dev nD) (t : Fin cfg0.N) :
    (dats m 0 c).flushed 3 t = ((cfg0.win 3).blk t).view.read (Elt Ideal)
      (TwoHop.pair (V m c main_arg0) (V m c main_arg1) (V m c main_arg2)) := by
  rw [Value.flushed3]
  obtain ⟨-, -, -, -, -, -, e30, e31⟩ := index_facts t
  funext j
  obtain ⟨p, q, rfl⟩ : ∃ (p : Fin 200) (q : Fin 256), j = ix2 p q := ⟨j 0, j 1, eq_ix2 j⟩
  have hb : win0_3.index t (0 : Fin 2) * 200 + p.val < 10000 := by have := p.isLt; omega
  have hemb : ((cfg0.win 3).blk t).view.emb (ix2 p q)
      = ix2 (⟨win0_3.index t (0 : Fin 2) * 200 + p.val, hb⟩ : Fin 10000) q :=
    funext fun a => Fin.ext (by
      match a with
      | ⟨0, _⟩ => show win0_3.index t (0 : Fin 2) * 200 + 1 * p.val = win0_3.index t (0 : Fin 2) * 200 + p.val; omega
      | ⟨1, _⟩ => show win0_3.index t (1 : Fin 2) * 256 + 1 * q.val = q.val; omega)
  show out0_3 (iblk m c 0 t) (iblk m c 1 t) (iblk m c 2 t) (ix2 p q)
    = TwoHop.pair (V m c main_arg0) (V m c main_arg1) (V m c main_arg2) (((cfg0.win 3).blk t).view.emb (ix2 p q))
  rw [hemb, TwoHop.pair_apply]
  refine (congrFun (Strip.block_eq (iblk m c 0 t) (iblk m c 1 t) (iblk m c 2 t)) (ix2 p q)).trans ?_
  rw [TwoHop.pair_apply]
  exact TwoHop.entry_congr (iblk m c 0 t) (V m c main_arg0) (iblk m c 1 t) (iblk m c 2 t) (V m c main_arg1) (V m c main_arg2)
    p ⟨win0_3.index t (0 : Fin 2) * 200 + p.val, hb⟩ q (x_block m c t)
    (a1_block m c t p _ rfl) (a2_block m c t p _ rfl)

/-- An index of the result array is in point `t`'s strip iff each coordinate is in the strip's range. -/
theorem mem_strip (t : Fin cfg0.N) (i : S10000x256.Idx) :
    i ∈ ((cfg0.win 3).blk t).view.set ↔ ∀ a : Fin 2, win0_3.index t a * S200x256.size a ≤ (i a).val
      ∧ (i a).val < win0_3.index t a * S200x256.size a + S200x256.size a := by
  show i ∈ ((View.whole main_v0).slice (win0_3.rect t)).set ↔ _
  rw [View.set_slice_whole, Rect.mem_set_unit]
  exact Iff.rfl

/-- The strips cover the result array: row `r` lies in strip `r / 200`. -/
theorem covered (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  obtain ⟨t, ht⟩ := index_onto ⟨(i 0).val / 200, by omega⟩
  have q0 : win0_3.index t (0 : Fin 2) = (i 0).val / 200 := congrFun ht 0
  have q1 : win0_3.index t (1 : Fin 2) = 0 := congrFun ht 1
  refine ⟨t, flush0_3 t, ?_⟩
  rw [mem_strip]
  intro a
  match a with
  | ⟨0, _⟩ =>
    show win0_3.index t (0 : Fin 2) * 200 ≤ (i 0).val ∧ (i 0).val < win0_3.index t (0 : Fin 2) * 200 + 200
    omega
  | ⟨1, _⟩ =>
    show win0_3.index t (1 : Fin 2) * 256 ≤ (i 1).val ∧ (i 1).val < win0_3.index t (1 : Fin 2) * 256 + 256
    omega

/-- After the run the result array is `[a₁ · x | a₂ · x]` of the argument arrays. -/
theorem final (c : Dev nD) :
    (dats m 0 c).arrAt 3 cfg0.N = TwoHop.pair (m ((c : Thread nD τ).loc main_arg0))
      (m ((c : Thread nD τ).loc main_arg1)) (m ((c : Thread nD τ).loc main_arg2)) :=
  (dats m 0 c).arrAt_eq_of_cover 3 _ (fun t _ => flushed_eq m c t) covered

/-- The kernel's run: every weakly fair execution terminates with the result at `[a₁ · x | a₂ · x]` and the
    arguments unchanged. -/
theorem run : θ_run defs (onTc (τ := τ) (main (F := Ideal))) ⟨m, fun _ => 0, ρ⟩ fun r => ∀ c : Dev nD,
      r.2.mem ((c : Thread nD τ).loc main_v0) = TwoHop.pair (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  The kernel computes `concat([adj_t · x, adj_t2 · x], axis = 1)` over a grid of 50 row strips; the reference
  computes the two products on the host and concatenates them.

  Over the extended reals both results are the 10000 × 256 matrix `[a₁ · x | a₂ · x]` (`TwoHop.pair`): entry
  `(r, c)` is `∑ k, a₁ (r, k) · x (k, c)` for `c < 128` and `∑ k, a₂ (r, k) · x (k, c − 128)` otherwise.
  * The kernel: at each grid point the body multiplies a 200-row strip of each adjacency matrix by all of `x`
    into a zero accumulator and stores the two products in the two column halves of the output block
    (`Strip.block_eq`); an entry reads only its own row, so the strip written is the strip of the whole result,
    and the 50 strips tile the rows (`Whole.run`).
  * The reference: a host product at `(r, q)` is the same sum, and a concatenation along the columns reads the
    first product below column 128 and the second from column 128 on (`RefValue.result_eq`).
  The two sums are the same term, so no law of arithmetic beyond that is used and the finiteness of the inputs is
  never opened. The three frames are the generated ones (the reference's is its generated run with the result
  dropped), and the idealization rewrote nothing, so `preserves` is trivial.
-/
import proofs.«120631_g35588099015572_cont_8to1_b_1945_26_alg».proof.Defs
import proofs.«120631_g35588099015572_cont_8to1_b_1945_26_alg».proof.Proof.Gen.Kernel
import proofs.«120631_g35588099015572_cont_8to1_b_1945_26_alg».proof.Proof.Gen.Kernel.Skeleton
import proofs.«120631_g35588099015572_cont_8to1_b_1945_26_alg».proof.Proof.Gen.Kernel.Launch
import proofs.«120631_g35588099015572_cont_8to1_b_1945_26_alg».proof.Proof.Gen.Kernel.Points
import proofs.«120631_g35588099015572_cont_8to1_b_1945_26_alg».proof.Proof.Gen.Kernel.Frame
import proofs.«120631_g35588099015572_cont_8to1_b_1945_26_alg».proof.Proof.Gen.KernelIdeal
import proofs.«120631_g35588099015572_cont_8to1_b_1945_26_alg».proof.Proof.Gen.KernelIdeal.Skeleton
import proofs.«120631_g35588099015572_cont_8to1_b_1945_26_alg».proof.Proof.Gen.KernelIdeal.Launch
import proofs.«120631_g35588099015572_cont_8to1_b_1945_26_alg».proof.Proof.Gen.KernelIdeal.Points
import proofs.«120631_g35588099015572_cont_8to1_b_1945_26_alg».proof.Proof.Gen.KernelIdeal.Frame
import proofs.«120631_g35588099015572_cont_8to1_b_1945_26_alg».proof.Proof.Gen.ReferenceIdeal
import proofs.«120631_g35588099015572_cont_8to1_b_1945_26_alg».proof.Proof.Gen.KernelIdeal.Value
import proofs.«120631_g35588099015572_cont_8to1_b_1945_26_alg».proof.Proof.Gen.ReferenceIdeal.Run
import proofs.«120631_g35588099015572_cont_8to1_b_1945_26_alg».proof.Proof.Gen.ReferenceIdeal.Read
import proofs.«120631_g35588099015572_cont_8to1_b_1945_26_alg».proof.Proof.Gen.Pre_finite_inputs
import proofs.«120631_g35588099015572_cont_8to1_b_1945_26_alg».proof.Proof.RefValue
import proofs.«120631_g35588099015572_cont_8to1_b_1945_26_alg».proof.Proof.Whole
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result at `[a₁ · x | a₂ · x]`. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
